-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x512 .f32) (main_arg1 : IVec S800000 32) (main_arg2 : IVec S800000 32) (main_arg3 : FVec F S800000 .f32) (main_arg4 : FVec F S512x256 .f32) (main_arg5 : FVec F S256 .f32) (main_arg6 : FVec F S256x128 .f32) (main_arg7 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000x256 : Shape := ⟨2, ![50000, 256]⟩
abbrev S2000x512 : Shape := ⟨2, ![2000, 512]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩

abbrev nBuf : Space → Nat
  | .hbm => 45
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S50000x256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x1, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S1x256, .f32⟩
  | .hbm, ⟨26, _⟩ => ⟨S50000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x1, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x128, .f32⟩
  | .hbm, ⟨44, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S256x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S50000x256, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x1, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S1x256, .f32⟩
  | .hbm, ⟨26, _⟩ => ⟨S50000x256, .f32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x1, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's run with its result array named.

  The program is three row-tiled regions with two stretches of host operations between them.  Its buffer
  contents at every boundary are a fold through the program: the launch memory; after a region, the region's
  arrays at what its write-backs leave and every other buffer as entered; after a stretch of host operations,
  the operations applied in order.  Every weakly fair execution terminates and ends with EVERY unscoped buffer
  of a core at the last fold, in particular the result array; the arguments end as launched.
-/
import proofs.«112924_j58248346469020_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last fold's contents, each argument as launched. -/
theorem run_out : θ_run defs (onTc (τ := τ) (main (F := F))) ⟨m, fun _ => 0, ρ⟩ (fun r => ∀ c : Dev nD,
      r.2.mem ((c.tc : Thread nD τ).loc main_v30) = W5 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v30 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Out

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibGcnLayer.lean ====
/-
  One graph-convolution layer, entry by entry, on the extended reals.

  A layer first multiplies every node's feature row by a weight matrix: entry (r, n) of the product is
  sum_k x(r, k) * w(k, n), a function of row r of x only.  It then adds, to the aggregated neighbour messages
  agg(r, n), the node's own row scaled by a per-node factor d(r), and a bias b(n):
  (agg(r, n) + d(r) * xw(r, n)) + b(n), followed on the hidden layers by a maximum with zero.  Entry (r, n)
  of that depends on entry (r, n) of agg and xw, on d(r) and on b(n) only.  Because of this a program that
  walks over blocks of rows computes the same array as one that works on whole matrices, and the two
  spellings met here (a matrix product accumulated into a zero splat on operands narrowed to bf16, against a
  dot_general; the factor as a column and the bias as a row, against both broadcast from vectors) read to
  the same functions.  Everything is generic in the extents.
-/
import proofs.«112924_j58248346469020_1_alg».proof.Proof.LibDense
import proofs.«112924_j58248346469020_1_alg».proof.Proof.LibLayout
import Idealize.ShloMosaic.Lib.ValueIdx
import Idealize.ShloMosaic.Lib.Pipeline.Value
import Idealize.ShloMosaic.PureOps.Ideal.Laws

noncomputable section

open scoped BigOperators

namespace Cert.Gcn

open Idealize.ShloMosaic Idealize.ShloMosaic.ValueIdx

/-! ## The product with the weights -/

/-- Entry (r, n) of x times w: the sum over k of x(r, k) * w(k, n). -/
def lin (A K N : Nat) (x : FVec Ideal ⟨2, ![A, K]⟩ .f32) (w : FVec Ideal ⟨2, ![K, N]⟩ .f32) : FVec Ideal ⟨2, ![A, N]⟩ .f32 :=
  fun j => ∑ k : Fin K, x (ix2 (j 0 : Fin A) k) * w (ix2 k (j 1 : Fin N))

/-- A matrix product of operands narrowed to bf16, accumulated into a zero splat, is that sum: narrowing is the
    identity on extended reals and the zero accumulator adds nothing. -/
theorem lin_of_matmul {A K N : Nat} (x : FVec Ideal ⟨2, ![A, K]⟩ .f32) (w : FVec Ideal ⟨2, ![K, N]⟩ .f32)
    (hlt : FTy.bits .bf16 < FTy.bits .f32) :
    matmul (DotDims.plain A K N) none (truncf .bf16 x hlt) (truncf .bf16 w hlt) (constant ⟨2, ![A, N]⟩ .f32 0x00000000#32)
      = lin A K N x w := by
  funext j
  exact (Ideal.matmul_constant_zero_apply (DotDims.plain A K N) none (truncf .bf16 x hlt) (truncf .bf16 w hlt) j).trans
    (Cert.LibDense.plain_sum A K N x w j)

/-- The host's dot_general with the plain dimension numbers is the same sum. -/
theorem lin_of_dotGeneral {A K N : Nat} (x : FVec Ideal ⟨2, ![A, K]⟩ .f32) (w : FVec Ideal ⟨2, ![K, N]⟩ .f32) :
    Host.dotGeneral (DotDims.plain A K N) none x w = lin A K N x w := by
  funext j
  exact (Ideal.dotGeneral_apply (DotDims.plain A K N) none _ x w j).trans (Cert.LibDense.plain_sum A K N x w j)

/-- Entry (p, q) of the product depends on row p of the left factor and on column q of the right one only. -/
theorem lin_entry {A A' K N : Nat} (x : FVec Ideal ⟨2, ![A, K]⟩ .f32) (x' : FVec Ideal ⟨2, ![A', K]⟩ .f32)
    (w w' : FVec Ideal ⟨2, ![K, N]⟩ .f32) (p : Fin A) (r : Fin A') (q : Fin N)
    (hx : ∀ k : Fin K, x (ix2 p k) = x' (ix2 r k)) (hw : ∀ k : Fin K, w (ix2 k q) = w' (ix2 k q)) :
    lin A K N x w (ix2 p q) = lin A' K N x' w' (ix2 r q) := by
  show (∑ k : Fin K, x (ix2 p k) * w (ix2 k q)) = ∑ k : Fin K, x' (ix2 r k) * w' (ix2 k q)
  exact Finset.sum_congr rfl fun k _ => by rw [hx k, hw k]

/-! ## Messages, self term and bias -/

/-- Entry (r, n) of a layer before its activation, the per-node factor given as a column and the bias as a row:
    (agg(r, n) + d(r, 0) * xw(r, n)) + b(0, n). -/
def comb (A N : Nat) (agg xw : FVec Ideal ⟨2, ![A, N]⟩ .f32) (dcol : FVec Ideal ⟨2, ![A, 1]⟩ .f32)
    (brow : FVec Ideal ⟨2, ![1, N]⟩ .f32) : FVec Ideal ⟨2, ![A, N]⟩ .f32 :=
  fun j => (agg j + dcol (ix2 (j 0 : Fin A) (0 : Fin 1)) * xw j) + brow (ix2 (0 : Fin 1) (j 1 : Fin N))

/-- The same followed by the maximum with zero. -/
def combRelu (A N : Nat) (agg xw : FVec Ideal ⟨2, ![A, N]⟩ .f32) (dcol : FVec Ideal ⟨2, ![A, 1]⟩ .f32)
    (brow : FVec Ideal ⟨2, ![1, N]⟩ .f32) : FVec Ideal ⟨2, ![A, N]⟩ .f32 :=
  fun j => max (comb A N agg xw dcol brow j) (Ideal.ofBits .f32 0x00000000#32)

/-- Entry (p, q) depends on entry (p, q) of the messages and of the product, on the factor of row p and on the
    bias of column q. -/
theorem comb_entry {A A' N : Nat} (agg xw : FVec Ideal ⟨2, ![A, N]⟩ .f32) (dcol : FVec Ideal ⟨2, ![A, 1]⟩ .f32)
    (brow brow' : FVec Ideal ⟨2, ![1, N]⟩ .f32) (agg' xw' : FVec Ideal ⟨2, ![A', N]⟩ .f32)
    (dcol' : FVec Ideal ⟨2, ![A', 1]⟩ .f32) (p : Fin A) (r : Fin A') (q : Fin N)
    (h1 : agg (ix2 p q) = agg' (ix2 r q)) (h2 : xw (ix2 p q) = xw' (ix2 r q))
    (h3 : dcol (ix2 p (0 : Fin 1)) = dcol' (ix2 r (0 : Fin 1))) (h4 : brow (ix2 (0 : Fin 1) q) = brow' (ix2 (0 : Fin 1) q)) :
    comb A N agg xw dcol brow (ix2 p q) = comb A' N agg' xw' dcol' brow' (ix2 r q) := by
  show (agg (ix2 p q) + dcol (ix2 p (0 : Fin 1)) * xw (ix2 p q)) + brow (ix2 (0 : Fin 1) q)
    = (agg' (ix2 r q) + dcol' (ix2 r (0 : Fin 1)) * xw' (ix2 r q)) + brow' (ix2 (0 : Fin 1) q)
  rw [h1, h2, h3, h4]

theorem combRelu_entry {A A' N : Nat} (agg xw : FVec Ideal ⟨2, ![A, N]⟩ .f32) (dcol : FVec Ideal ⟨2, ![A, 1]⟩ .f32)
    (brow brow' : FVec Ideal ⟨2, ![1, N]⟩ .f32) (agg' xw' : FVec Ideal ⟨2, ![A', N]⟩ .f32)
    (dcol' : FVec Ideal ⟨2, ![A', 1]⟩ .f32) (p : Fin A) (r : Fin A') (q : Fin N)
    (h1 : agg (ix2 p q) = agg' (ix2 r q)) (h2 : xw (ix2 p q) = xw' (ix2 r q))
    (h3 : dcol (ix2 p (0 : Fin 1)) = dcol' (ix2 r (0 : Fin 1))) (h4 : brow (ix2 (0 : Fin 1) q) = brow' (ix2 (0 : Fin 1) q)) :
    combRelu A N agg xw dcol brow (ix2 p q) = combRelu A' N agg' xw' dcol' brow' (ix2 r q) :=
  congrArg (max · (Ideal.ofBits .f32 0x00000000#32)) (comb_entry agg xw dcol brow brow' agg' xw' dcol' p r q h1 h2 h3 h4)

/-- A one-row array broadcast down the rows reads, at (p, q), the row's entry of column q. -/
theorem broadcastTo_1n_an_apply {A N : Nat} {α : Type} (v : (⟨2, ![1, N]⟩ : Shape).Idx → α)
    (h : (⟨2, ![1, N]⟩ : Shape).Broadcasts ⟨2, ![A, N]⟩) (p : Fin A) (q : Fin N) :
    broadcastTo ⟨2, ![A, N]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if N = 1 then 0 else q.val
    split
    · have := q.isLt; omega
    · rfl

/-- The hidden layers' body: identity casts of the loaded blocks, the factor's column broadcast along the rows, the
    bias row broadcast down them, a maximum with a splatted zero. -/
theorem combRelu_of_body {A N : Nat} (agg xw : FVec Ideal ⟨2, ![A, N]⟩ .f32) (dcol : FVec Ideal ⟨2, ![A, 1]⟩ .f32)
    (brow : FVec Ideal ⟨2, ![1, N]⟩ .f32)
    (hAN : (⟨2, ![A, N]⟩ : Shape).ShapeCasts ⟨2, ![A, N]⟩) (hA1 : (⟨2, ![A, 1]⟩ : Shape).ShapeCasts ⟨2, ![A, 1]⟩)
    (h1N : (⟨2, ![1, N]⟩ : Shape).ShapeCasts ⟨2, ![1, N]⟩)
    (hbd : (⟨2, ![A, 1]⟩ : Shape).Broadcasts ⟨2, ![A, N]⟩) (hbb : (⟨2, ![1, N]⟩ : Shape).Broadcasts ⟨2, ![A, N]⟩) :
    maximumf (addf (addf (shapeCast ⟨2, ![A, N]⟩ agg hAN)
        (mulf (broadcastTo ⟨2, ![A, N]⟩ (shapeCast ⟨2, ![A, 1]⟩ dcol hA1) hbd) (shapeCast ⟨2, ![A, N]⟩ xw hAN)))
        (broadcastTo ⟨2, ![A, N]⟩ (shapeCast ⟨2, ![1, N]⟩ brow h1N) hbb))
      (broadcast ⟨2, ![A, N]⟩ (Scalar.ofBits (F := Ideal) .f32 0x00000000#32))
      = combRelu A N agg xw dcol brow := by
  funext j
  obtain ⟨p, q, rfl⟩ : ∃ (p : Fin A) (q : Fin N), j = ix2 p q := ⟨j 0, j 1, eq_ix2 j⟩
  rw [shapeCast_self, shapeCast_self, shapeCast_self, shapeCast_self]
  show max ((agg (ix2 p q) + broadcastTo ⟨2, ![A, N]⟩ dcol hbd (ix2 p q) * xw (ix2 p q))
      + broadcastTo ⟨2, ![A, N]⟩ brow hbb (ix2 p q)) (Ideal.ofBits .f32 0x00000000#32) = _
  rw [Cert.LibLayout.broadcastTo_a1_ab_apply dcol hbd p q, broadcastTo_1n_an_apply brow hbb p q]
  rfl

/-- The last layer's body (one output column, no activation): the factor's column is already of the output's shape. -/
theorem comb_of_body {A : Nat} (agg xw dcol : FVec Ideal ⟨2, ![A, 1]⟩ .f32) (brow : FVec Ideal ⟨2, ![1, 1]⟩ .f32)
    (hA1 : (⟨2, ![A, 1]⟩ : Shape).ShapeCasts ⟨2, ![A, 1]⟩) (h11 : (⟨2, ![1, 1]⟩ : Shape).ShapeCasts ⟨2, ![1, 1]⟩)
    (hbb : (⟨2, ![1, 1]⟩ : Shape).Broadcasts ⟨2, ![A, 1]⟩) :
    addf (addf (shapeCast ⟨2, ![A, 1]⟩ agg hA1) (mulf (shapeCast ⟨2, ![A, 1]⟩ dcol hA1) (shapeCast ⟨2, ![A, 1]⟩ xw hA1)))
        (broadcastTo ⟨2, ![A, 1]⟩ (shapeCast ⟨2, ![1, 1]⟩ brow h11) hbb)
      = comb A 1 agg xw dcol brow := by
  funext j
  obtain ⟨p, q, rfl⟩ : ∃ (p : Fin A) (q : Fin 1), j = ix2 p q := ⟨j 0, j 1, eq_ix2 j⟩
  rw [shapeCast_self, shapeCast_self, shapeCast_self, shapeCast_self]
  show (agg (ix2 p q) + dcol (ix2 p q) * xw (ix2 p q)) + broadcastTo ⟨2, ![A, 1]⟩ brow hbb (ix2 p q) = _
  rw [broadcastTo_1n_an_apply brow hbb p q]
  have hq : q = (0 : Fin 1) := Subsingleton.elim _ _
  subst hq
  rfl

/-! ## The factor and the bias given as vectors -/

/-- A vector cast to one row reads, at (0, q), the vector at q. -/
theorem shapeCast_n_1n_apply {N : Nat} {α : Type} (b : (⟨1, ![N]⟩ : Shape).Idx → α)
    (h : (⟨1, ![N]⟩ : Shape).ShapeCasts ⟨2, ![1, N]⟩) (q : Fin N) :
    shapeCast ⟨2, ![1, N]⟩ b h (ix2 (0 : Fin 1) q) = b (ix1 q) :=
  shapeCast_apply b h _ _ (by
    rw [Shape.rowMajor_val_two, Shape.rowMajor_val_one]; show q.val = 0 * N + q.val; omega)

/-- With the factor a vector cast to a column and the bias a vector cast to a row, entry (r, q) reads the factor at r
    and the bias at q. -/
theorem comb_of_casts {A N : Nat} (agg xw : FVec Ideal ⟨2, ![A, N]⟩ .f32) (d : FVec Ideal ⟨1, ![A]⟩ .f32)
    (b : FVec Ideal ⟨1, ![N]⟩ .f32) (hd : (⟨1, ![A]⟩ : Shape).ShapeCasts ⟨2, ![A, 1]⟩)
    (hb : (⟨1, ![N]⟩ : Shape).ShapeCasts ⟨2, ![1, N]⟩) (r : Fin A) (q : Fin N) :
    comb A N agg xw (shapeCast ⟨2, ![A, 1]⟩ d hd) (shapeCast ⟨2, ![1, N]⟩ b hb) (ix2 r q)
      = (agg (ix2 r q) + d (ix1 r) * xw (ix2 r q)) + b (ix1 q) := by
  show (agg (ix2 r q) + shapeCast ⟨2, ![A, 1]⟩ d hd (ix2 r (0 : Fin 1)) * xw (ix2 r q))
    + shapeCast ⟨2, ![1, N]⟩ b hb (ix2 (0 : Fin 1) q) = _
  rw [Cert.LibLayout.shapeCast_a_a1_apply d hd r (0 : Fin 1), shapeCast_n_1n_apply b hb q]

theorem combRelu_of_casts {A N : Nat} (agg xw : FVec Ideal ⟨2, ![A, N]⟩ .f32) (d : FVec Ideal ⟨1, ![A]⟩ .f32)
    (b : FVec Ideal ⟨1, ![N]⟩ .f32) (hd : (⟨1, ![A]⟩ : Shape).ShapeCasts ⟨2, ![A, 1]⟩)
    (hb : (⟨1, ![N]⟩ : Shape).ShapeCasts ⟨2, ![1, N]⟩) (r : Fin A) (q : Fin N) :
    combRelu A N agg xw (shapeCast ⟨2, ![A, 1]⟩ d hd) (shapeCast ⟨2, ![1, N]⟩ b hb) (ix2 r q)
      = max ((agg (ix2 r q) + d (ix1 r) * xw (ix2 r q)) + b (ix1 q)) (Ideal.ofBits .f32 0x00000000#32) :=
  congrArg (max · (Ideal.ofBits .f32 0x00000000#32)) (comb_of_casts agg xw d b hd hb r q)

end Cert.Gcn

end
-- ==== Proof.Layers.lean ====
/-
  The two dense stages of a two-layer graph convolution, entry by entry on the extended reals.

  After the neighbour sums agg(r, n) of a layer have been formed, the layer adds a bias b(n) and takes the
  maximum with zero:  h(r, n) = max (agg(r, n) + b(n)) 0.  The first layer's h is then multiplied by the second
  layer's weights:  (h w)(r, n) = sum_k h(r, k) * w(k, n).  Entry (r, n) of either depends on row r of agg only,
  which is why a program that walks over tiles of rows and one that works on whole matrices compute the same
  arrays.  Two spellings are read here to these functions: the tiled one (the bias held as a one-row matrix and
  broadcast down the tile, a splatted zero, the product accumulated into a zero splat on operands narrowed to
  bf16, which changes nothing on extended reals) and the whole-matrix one (the bias broadcast to one row and then
  down the rows, a broadcast zero constant, a dot_general).  Everything is generic in the extents.
-/
import proofs.«112924_j58248346469020_1_alg».proof.Proof.LibDense
import proofs.«112924_j58248346469020_1_alg».proof.Proof.LibLayout
import proofs.«112924_j58248346469020_1_alg».proof.Proof.LibGcnLayer
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.Layers

open Idealize.ShloMosaic Idealize.ShloMosaic.ValueIdx Cert.Gcn

/-! ## Bias and maximum with zero -/

/-- The bias given as a one-row matrix: entry (r, n) is max (agg(r, n) + brow(0, n)) 0. -/
def biasReluRow (A N : Nat) (agg : FVec Ideal ⟨2, ![A, N]⟩ .f32) (brow : FVec Ideal ⟨2, ![1, N]⟩ .f32) :
    FVec Ideal ⟨2, ![A, N]⟩ .f32 :=
  fun j => max (agg j + brow (ix2 (0 : Fin 1) (j 1 : Fin N))) (Ideal.ofBits .f32 0x00000000#32)

/-- The bias given as a vector: entry (r, n) is max (agg(r, n) + b(n)) 0. -/
def biasRelu (A N : Nat) (agg : FVec Ideal ⟨2, ![A, N]⟩ .f32) (b : FVec Ideal ⟨1, ![N]⟩ .f32) :
    FVec Ideal ⟨2, ![A, N]⟩ .f32 :=
  fun j => max (agg j + b (ix1 (j 1 : Fin N))) (Ideal.ofBits .f32 0x00000000#32)

/-- Entry (p, q) depends on entry (p, q) of the sums and on the bias of column q only. -/
theorem biasReluRow_entry {A A' N : Nat} (agg : FVec Ideal ⟨2, ![A, N]⟩ .f32) (agg' : FVec Ideal ⟨2, ![A', N]⟩ .f32)
    (brow brow' : FVec Ideal ⟨2, ![1, N]⟩ .f32) (p : Fin A) (r : Fin A') (q : Fin N)
    (h1 : agg (ix2 p q) = agg' (ix2 r q)) (h2 : brow (ix2 (0 : Fin 1) q) = brow' (ix2 (0 : Fin 1) q)) :
    biasReluRow A N agg brow (ix2 p q) = biasReluRow A' N agg' brow' (ix2 r q) := by
  show max (agg (ix2 p q) + brow (ix2 (0 : Fin 1) q)) _ = max (agg' (ix2 r q) + brow' (ix2 (0 : Fin 1) q)) _
  rw [h1, h2]

/-- A vector cast to one row and used as the row bias is the vector bias. -/
theorem biasReluRow_cast {A N : Nat} (agg : FVec Ideal ⟨2, ![A, N]⟩ .f32) (b : FVec Ideal ⟨1, ![N]⟩ .f32)
    (h : (⟨1, ![N]⟩ : Shape).ShapeCasts ⟨2, ![1, N]⟩) :
    biasReluRow A N agg (shapeCast ⟨2, ![1, N]⟩ b h) = biasRelu A N agg b := by
  funext j
  show max (agg j + shapeCast ⟨2, ![1, N]⟩ b h (ix2 (0 : Fin 1) (j 1 : Fin N))) _ = max (agg j + b (ix1 (j 1 : Fin N))) _
  rw [shapeCast_n_1n_apply b h (j 1 : Fin N)]

/-- The tiled spelling: identity casts of the two loaded blocks, the bias row broadcast down the tile, a
    maximum with a splatted zero. -/
theorem biasReluRow_kernel {A N : Nat} (agg : FVec Ideal ⟨2, ![A, N]⟩ .f32) (brow : FVec Ideal ⟨2, ![1, N]⟩ .f32)
    (hAN : (⟨2, ![A, N]⟩ : Shape).ShapeCasts ⟨2, ![A, N]⟩) (h1N : (⟨2, ![1, N]⟩ : Shape).ShapeCasts ⟨2, ![1, N]⟩)
    (hbb : (⟨2, ![1, N]⟩ : Shape).Broadcasts ⟨2, ![A, N]⟩) :
    maximumf (addf (shapeCast ⟨2, ![A, N]⟩ agg hAN) (broadcastTo ⟨2, ![A, N]⟩ (shapeCast ⟨2, ![1, N]⟩ brow h1N) hbb))
      (broadcast ⟨2, ![A, N]⟩ (Scalar.ofBits (F := Ideal) .f32 0x00000000#32))
      = biasReluRow A N agg brow := by
  funext j
  obtain ⟨p, q, rfl⟩ : ∃ (p : Fin A) (q : Fin N), j = ix2 p q := ⟨j 0, j 1, eq_ix2 j⟩
  rw [shapeCast_self, shapeCast_self]
  show max (agg (ix2 p q) + broadcastTo ⟨2, ![A, N]⟩ brow hbb (ix2 p q)) (Ideal.ofBits .f32 0x00000000#32) = _
  rw [broadcastTo_1n_an_apply brow hbb p q]
  rfl

/-- The whole-matrix spelling: the bias broadcast to one row, then down the rows; a maximum with a broadcast
    zero constant. -/
theorem biasRelu_host {A N : Nat} (agg : FVec Ideal ⟨2, ![A, N]⟩ .f32) (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1])
    (hS : (⟨0, ![]⟩ : Shape).BroadcastsInDim ⟨2, ![A, N]⟩ (![] : Fin 0 → Fin 2)) :
    maximumf (addf agg (broadcastInDim ⟨2, ![A, N]⟩ ![0, 1] hbc (broadcastInDim ⟨2, ![1, N]⟩ ![1] hd b)))
      (broadcastInDim ⟨2, ![A, N]⟩ ![] hS (constant (F := Ideal) ⟨0, ![]⟩ .f32 0x00000000#32))
      = biasRelu A N agg b := by
  funext j
  rw [maximumf_apply, addf_apply, Cert.LibDense.bias_rows_host b hd hbc j]
  rfl

/-! ## The second layer's product -/

/-- The tiled spelling of the first layer's activation times the second layer's weights. -/
theorem lin_biasReluRow_kernel {A K N : Nat} (agg : FVec Ideal ⟨2, ![A, K]⟩ .f32) (brow : FVec Ideal ⟨2, ![1, K]⟩ .f32)
    (w : FVec Ideal ⟨2, ![K, N]⟩ .f32) (hlt : FTy.bits .bf16 < FTy.bits .f32)
    (hAK : (⟨2, ![A, K]⟩ : Shape).ShapeCasts ⟨2, ![A, K]⟩) (h1K : (⟨2, ![1, K]⟩ : Shape).ShapeCasts ⟨2, ![1, K]⟩)
    (hbb : (⟨2, ![1, K]⟩ : Shape).Broadcasts ⟨2, ![A, K]⟩) :
    matmul (DotDims.plain A K N) none
        (truncf .bf16 (maximumf (addf (shapeCast ⟨2, ![A, K]⟩ agg hAK)
            (broadcastTo ⟨2, ![A, K]⟩ (shapeCast ⟨2, ![1, K]⟩ brow h1K) hbb))
          (broadcast ⟨2, ![A, K]⟩ (Scalar.ofBits (F := Ideal) .f32 0x00000000#32))) hlt)
        (truncf .bf16 w hlt) (constant ⟨2, ![A, N]⟩ .f32 0x00000000#32)
      = lin A K N (biasReluRow A K agg brow) w := by
  rw [biasReluRow_kernel agg brow hAK h1K hbb]
  exact lin_of_matmul (biasReluRow A K agg brow) w hlt

/-- The whole-matrix spelling of the same. -/
theorem lin_biasRelu_host {A K N : Nat} (agg : FVec Ideal ⟨2, ![A, K]⟩ .f32) (b : FVec Ideal ⟨1, ![K]⟩ .f32)
    (w : FVec Ideal ⟨2, ![K, N]⟩ .f32)
    (hd : (⟨1, ![K]⟩ : Shape).BroadcastsInDim ⟨2, ![1, K]⟩ ![1])
    (hbc : (⟨2, ![1, K]⟩ : Shape).BroadcastsInDim ⟨2, ![A, K]⟩ ![0, 1])
    (hS : (⟨0, ![]⟩ : Shape).BroadcastsInDim ⟨2, ![A, K]⟩ (![] : Fin 0 → Fin 2)) :
    Host.dotGeneral (DotDims.plain A K N) none
        (maximumf (addf agg (broadcastInDim ⟨2, ![A, K]⟩ ![0, 1] hbc (broadcastInDim ⟨2, ![1, K]⟩ ![1] hd b)))
          (broadcastInDim ⟨2, ![A, K]⟩ ![] hS (constant (F := Ideal) ⟨0, ![]⟩ .f32 0x00000000#32))) w
      = lin A K N (biasRelu A K agg b) w := by
  rw [biasRelu_host agg b hd hbc hS]
  exact lin_of_dotGeneral (biasRelu A K agg b) w

/-! ## Entries of a tile against entries of the whole array -/

/-- An entry of the tiled bias-and-maximum is the whole array's entry at an index of the same column whose sum is
    the same. -/
theorem biasReluRow_at {A A' N : Nat} (agg : FVec Ideal ⟨2, ![A, N]⟩ .f32) (agg' : FVec Ideal ⟨2, ![A', N]⟩ .f32)
    (brow brow' : FVec Ideal ⟨2, ![1, N]⟩ .f32) (j : (⟨2, ![A, N]⟩ : Shape).Idx) (i : (⟨2, ![A', N]⟩ : Shape).Idx)
    (hc : (i 1 : Fin N) = (j 1 : Fin N)) (h1 : agg j = agg' i)
    (h2 : brow (ix2 (0 : Fin 1) (j 1 : Fin N)) = brow' (ix2 (0 : Fin 1) (j 1 : Fin N))) :
    biasReluRow A N agg brow j = biasReluRow A' N agg' brow' i := by
  show max (agg j + brow (ix2 (0 : Fin 1) (j 1 : Fin N))) _ = max (agg' i + brow' (ix2 (0 : Fin 1) (i 1 : Fin N))) _
  rw [h1, h2, hc]

/-- An entry of a tile's product with the weights is the whole array's entry at an index of the same column whose
    row holds the same numbers. -/
theorem lin_at {A A' K N : Nat} (x : FVec Ideal ⟨2, ![A, K]⟩ .f32) (x' : FVec Ideal ⟨2, ![A', K]⟩ .f32)
    (w w' : FVec Ideal ⟨2, ![K, N]⟩ .f32) (j : (⟨2, ![A, N]⟩ : Shape).Idx) (i : (⟨2, ![A', N]⟩ : Shape).Idx)
    (hc : (i 1 : Fin N) = (j 1 : Fin N))
    (hx : ∀ k : Fin K, x (ix2 (j 0 : Fin A) k) = x' (ix2 (i 0 : Fin A') k))
    (hw : ∀ k : Fin K, w (ix2 k (j 1 : Fin N)) = w' (ix2 k (j 1 : Fin N))) :
    lin A K N x w j = lin A' K N x' w' i := by
  show (∑ k : Fin K, x (ix2 (j 0 : Fin A) k) * w (ix2 k (j 1 : Fin N)))
    = ∑ k : Fin K, x' (ix2 (i 0 : Fin A') k) * w' (ix2 k (i 1 : Fin N))
  rw [hc]
  exact Finset.sum_congr rfl fun k _ => by rw [hx k, hw k]

end Cert.Layers

end
-- ==== Proof.Blocks0.lean ====
/-
  The first region: the feature matrix times the first layer's weights, tile by tile.

  The grid has 25 points; point t reads rows 2000 t .. 2000 t + 1999 of the [50000, 512] feature matrix and the whole
  [512, 256] weight matrix, and writes rows 2000 t .. 2000 t + 1999 of the [50000, 256] product.  Entry (p, n) of the
  tile's product is sum_k x(2000 t + p, k) * w(k, n), which is entry (2000 t + p, n) of the product of the whole
  matrices; the 25 tiles cover the array, so after the region the array holds the whole product.  The contents the
  region is entered with are a parameter.
-/
import proofs.«112924_j58248346469020_1_alg».proof.Proof.Gen.KernelIdeal.Frame
import proofs.«112924_j58248346469020_1_alg».proof.Proof.Layers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks0

open Cert.KernelIdeal Cert.KernelIdeal.Gen Cert.Gcn Cert.Layers

variable (V : (c : Dev nD) → (b : Ref sig .tc) → Buf (Elt Ideal) ((c : Thread nD τ).loc b))

theorem hz : (![0, 0] : Fin 2 → Nat) = fun _ => 0 := funext fun a => by fin_cases a <;> rfl

/-- What the body leaves in the output tile: the product of the two loaded blocks. -/
theorem out0_eq (x0 : Vec Ideal S2000x512 .f32) (x1 : Vec Ideal S512x256 .f32) :
    out0_2 (F := Ideal) x0 x1 = lin 2000 512 256 x0 x1 := by
  unfold out0_2
  rw [View.canon_unit_zero hz]
  simp only [View.ld_unit_zero (S := S2000x512) hz, View.ld_unit_zero (S := S512x256) hz]
  exact lin_of_matmul x0 x1 bitsLt_bf16_f32

/-- The block indices over the grid: the row-tiled windows are at block (t, 0), the weights at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t is rows 2000 t .. of the feature matrix. -/
theorem iblk0_0_apply (c : Dev nD) (t : Fin cfg0.N) (y : S2000x512.Idx) (i : S50000x512.Idx)
    (h0 : (i 0).val = t.val * 2000 + (y 0).val) (h1 : (i 1).val = (y 1).val) :
    (iblk0 V c 0 t : Vec Ideal S2000x512 .f32) y = (V c main_arg0 : S50000x512.Idx → Elt Ideal .f32) i := by
  obtain ⟨e0, e1, -⟩ := idx_facts0 t
  unfold iblk0
  rw [View.read_apply]
  show V c main_arg0 _ = V c main_arg0 _
  refine congrArg (V c main_arg0) ?_
  funext a; apply Fin.ext
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

/-- The weight window's block at every point is the weight matrix. -/
theorem iblk0_1_apply (c : Dev nD) (t : Fin cfg0.N) (y : S512x256.Idx) :
    (iblk0 V c 1 t : Vec Ideal S512x256 .f32) y = (V c main_arg4 : S512x256.Idx → Elt Ideal .f32) y := by
  obtain ⟨-, -, e2, e3, -⟩ := idx_facts0 t
  unfold iblk0
  rw [View.read_apply]
  show V c main_arg4 _ = V c main_arg4 _
  refine congrArg (V c main_arg4) ?_
  funext a; apply Fin.ext
  match a with
  | ⟨0, _⟩ => show win0_1.index t (0 : Fin 2) * 512 + 1 * (y 0).val = (y 0).val; rw [e2]; omega
  | ⟨1, _⟩ => show win0_1.index t (1 : Fin 2) * 256 + 1 * (y 1).val = (y 1).val; rw [e3]; omega

/-- What point t writes back is block t of the whole product. -/
theorem flushed0_eq (c : Dev nD) (t : Fin cfg0.N) :
    (dat0 V c).flushed 2 t = ((cfg0.win 2).blk t).view.read (Elt Ideal)
      (lin 50000 512 256 (V c main_arg0) (V c main_arg4)) := by
  show (cfg0.win 2).cut (grid0.coords t) ((dat0 V c).after 2 t) = _
  rw [after0_2, out0_eq]
  obtain ⟨-, -, -, -, e4, e5⟩ := idx_facts0 t
  funext j
  show lin 2000 512 256 (iblk0 V c 0 t) (iblk0 V c 1 t) j
    = lin 50000 512 256 (V c main_arg0) (V c main_arg4) (((cfg0.win 2).blk t).view.emb j)
  have hc0 : ((((cfg0.win 2).blk t).view.emb j) 0).val = t.val * 2000 + (j 0).val := by
    show win0_2.index t (0 : Fin 2) * 2000 + 1 * (j 0).val = _; rw [e4]; omega
  have hc1 : ((((cfg0.win 2).blk t).view.emb j) 1).val = (j 1).val := by
    show win0_2.index t (1 : Fin 2) * 256 + 1 * (j 1).val = _; rw [e5]; omega
  refine lin_at (iblk0 V c 0 t) (V c main_arg0) (iblk0 V c 1 t) (V c main_arg4) j _ (Fin.ext hc1) (fun k => ?_) (fun k => ?_)
  · exact iblk0_0_apply V c t _ _ hc0 rfl
  · exact iblk0_1_apply V c t _

/-- An index of the product is in point t's block iff each coordinate is in the block's range. -/
theorem mem_blk0 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v0).slice (win0_2.rect t)).set ↔ _
  rw [View.set_slice_whole, Rect.mem_set_unit]
  exact Iff.rfl

/-- Row r of the product is in the block of point r / 2000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨-, -, -, -, e4, e5⟩ := idx_facts0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 256 ≤ (i 1).val
      ∧ (i 1).val < win0_2.index ⟨(i 0).val / 2000, ht⟩ (1 : Fin 2) * 256 + 256
    rw [e5]; omega

/-- After the region the product array holds the whole product of the arrays the region was entered with. -/
theorem final0 (c : Dev nD) :
    (dat0 V c).arrAt 2 cfg0.N = lin 50000 512 256 (V c main_arg0) (V c main_arg4) :=
  (dat0 V c).arrAt_eq_of_cover 2 (lin 50000 512 256 (V c main_arg0) (V c main_arg4))
    (fun t _ => flushed0_eq V c t) cover0

end Cert.KernelIdeal.Blocks0

end
-- ==== Proof.Blocks1.lean ====
/-
  The second region: bias, maximum with zero, and the product with the second layer's weights, tile by tile.

  The grid has 25 points; point t reads rows 2000 t .. 2000 t + 1999 of the [50000, 256] neighbour sums, the whole
  [1, 256] bias row and the whole [256, 128] weight matrix, and writes rows 2000 t .. of the [50000, 128] result.  Entry
  (p, n) of the tile's result is sum_k max (agg(2000 t + p, k) + b(0, k)) 0 * w(k, n): entry (2000 t + p, n) of the
  same function of the whole arrays.  The 25 tiles cover the array.  The contents the region is entered with are a
  parameter.
-/
import proofs.«112924_j58248346469020_1_alg».proof.Proof.Gen.KernelIdeal.Frame
import proofs.«112924_j58248346469020_1_alg».proof.Proof.Layers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks1

open Cert.KernelIdeal Cert.KernelIdeal.Gen Cert.Gcn Cert.Layers

variable (V : (c : Dev nD) → (b : Ref sig .tc) → Buf (Elt Ideal) ((c : Thread nD τ).loc b))

theorem hz : (![0, 0] : Fin 2 → Nat) = fun _ => 0 := funext fun a => by fin_cases a <;> rfl

/-- What the body leaves in the output tile. -/
theorem out1_eq (x0 : Vec Ideal S2000x256 .f32) (x1 : Vec Ideal S1x256 .f32) (x2 : Vec Ideal S256x128 .f32) :
    out1_3 (F := Ideal) x0 x1 x2 = lin 2000 256 128 (biasReluRow 2000 256 x0 x1) x2 := by
  unfold out1_3
  rw [View.canon_unit_zero hz]
  simp only [View.ld_unit_zero (S := S2000x256) hz, View.ld_unit_zero (S := S1x256) hz, View.ld_unit_zero (S := S256x128) hz]
  exact lin_biasReluRow_kernel x0 x1 x2 bitsLt_bf16_f32 shapeCasts_S2000x256_S2000x256 shapeCasts_S1x256_S1x256
    broadcasts_S1x256_S2000x256

/-- The block indices over the grid: the row-tiled windows are at block (t, 0), the others at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The sums' block at point t is rows 2000 t .. of the sums. -/
theorem iblk1_0_apply (c : Dev nD) (t : Fin cfg1.N) (y : S2000x256.Idx) (i : S50000x256.Idx)
    (h0 : (i 0).val = t.val * 2000 + (y 0).val) (h1 : (i 1).val = (y 1).val) :
    (iblk1 V c 0 t : Vec Ideal S2000x256 .f32) y = (V c main_v13 : S50000x256.Idx → Elt Ideal .f32) i := by
  obtain ⟨e0, e1, -⟩ := idx_facts1 t
  unfold iblk1
  rw [View.read_apply]
  show V c main_v13 _ = V c main_v13 _
  refine congrArg (V c main_v13) ?_
  funext a; apply Fin.ext
  match a with
  | ⟨0, _⟩ => show win1_0.index t (0 : Fin 2) * 2000 + 1 * (y 0).val = (i 0).val; rw [e0, h0]; omega
  | ⟨1, _⟩ => show win1_0.index t (1 : Fin 2) * 256 + 1 * (y 1).val = (i 1).val; rw [e1, h1]; omega

/-- The bias row's block at every point is the bias row. -/
theorem iblk1_1_apply (c : Dev nD) (t : Fin cfg1.N) (y : S1x256.Idx) :
    (iblk1 V c 1 t : Vec Ideal S1x256 .f32) y = (V c main_v14 : S1x256.Idx → Elt Ideal .f32) y := by
  obtain ⟨-, -, e2, e3, -⟩ := idx_facts1 t
  unfold iblk1
  rw [View.read_apply]
  show V c main_v14 _ = V c main_v14 _
  refine congrArg (V c main_v14) ?_
  funext a; apply Fin.ext
  match a with
  | ⟨0, _⟩ => show win1_1.index t (0 : Fin 2) * 1 + 1 * (y 0).val = (y 0).val; rw [e2]; omega
  | ⟨1, _⟩ => show win1_1.index t (1 : Fin 2) * 256 + 1 * (y 1).val = (y 1).val; rw [e3]; omega

/-- The weight window's block at every point is the weight matrix. -/
theorem iblk1_2_apply (c : Dev nD) (t : Fin cfg1.N) (y : S256x128.Idx) :
    (iblk1 V c 2 t : Vec Ideal S256x128 .f32) y = (V c main_arg6 : S256x128.Idx → Elt Ideal .f32) y := by
  obtain ⟨-, -, -, -, e4, e5, -⟩ := idx_facts1 t
  unfold iblk1
  rw [View.read_apply]
  show V c main_arg6 _ = V c main_arg6 _
  refine congrArg (V c main_arg6) ?_
  funext a; apply Fin.ext
  match a with
  | ⟨0, _⟩ => show win1_2.index t (0 : Fin 2) * 256 + 1 * (y 0).val = (y 0).val; rw [e4]; omega
  | ⟨1, _⟩ => show win1_2.index t (1 : Fin 2) * 128 + 1 * (y 1).val = (y 1).val; rw [e5]; omega

/-- What point t writes back is block t of the function of the whole arrays. -/
theorem flushed1_eq (c : Dev nD) (t : Fin cfg1.N) :
    (dat1 V c).flushed 3 t = ((cfg1.win 3).blk t).view.read (Elt Ideal)
      (lin 50000 256 128 (biasReluRow 50000 256 (V c main_v13) (V c main_v14)) (V c main_arg6)) := by
  show (cfg1.win 3).cut (grid1.coords t) ((dat1 V c).after 3 t) = _
  rw [after1_3, out1_eq]
  obtain ⟨-, -, -, -, -, -, e6, e7⟩ := idx_facts1 t
  funext j
  show lin 2000 256 128 (biasReluRow 2000 256 (iblk1 V c 0 t) (iblk1 V c 1 t)) (iblk1 V c 2 t) j
    = lin 50000 256 128 (biasReluRow 50000 256 (V c main_v13) (V c main_v14)) (V c main_arg6)
        (((cfg1.win 3).blk t).view.emb j)
  have hc0 : ((((cfg1.win 3).blk t).view.emb j) 0).val = t.val * 2000 + (j 0).val := by
    show win1_3.index t (0 : Fin 2) * 2000 + 1 * (j 0).val = _; rw [e6]; omega
  have hc1 : ((((cfg1.win 3).blk t).view.emb j) 1).val = (j 1).val := by
    show win1_3.index t (1 : Fin 2) * 128 + 1 * (j 1).val = _; rw [e7]; omega
  refine lin_at (biasReluRow 2000 256 (iblk1 V c 0 t) (iblk1 V c 1 t)) (biasReluRow 50000 256 (V c main_v13) (V c main_v14))
    (iblk1 V c 2 t) (V c main_arg6) j _ (Fin.ext hc1) (fun k => ?_) (fun k => ?_)
  · refine biasReluRow_entry (iblk1 V c 0 t) (V c main_v13) (iblk1 V c 1 t) (V c main_v14) _ _ k ?_ ?_
    · exact iblk1_0_apply V c t _ _ hc0 rfl
    · exact iblk1_1_apply V c t _
  · exact iblk1_2_apply V c t _

/-- An index of the result is in point t's block iff each coordinate is in the block's range. -/
theorem mem_blk1 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v15).slice (win1_3.rect t)).set ↔ _
  rw [View.set_slice_whole, Rect.mem_set_unit]
  exact Iff.rfl

/-- Row r of the result is in the block of point r / 2000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨-, -, -, -, -, -, e6, e7⟩ := idx_facts1 ⟨(i 0).val / 2000, ht⟩
  refine ⟨⟨(i 0).val / 2000, ht⟩, flush1_3 _, ?_⟩
  rw [mem_blk1]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, ht⟩ (1 : Fin 2) * 128 ≤ (i 1).val
      ∧ (i 1).val < win1_3.index ⟨(i 0).val / 2000, ht⟩ (1 : Fin 2) * 128 + 128
    rw [e7]; omega

/-- After the region the result array holds the function of the arrays the region was entered with. -/
theorem final1 (c : Dev nD) :
    (dat1 V c).arrAt 3 cfg1.N
      = lin 50000 256 128 (biasReluRow 50000 256 (V c main_v13) (V c main_v14)) (V c main_arg6) :=
  (dat1 V c).arrAt_eq_of_cover 3 (lin 50000 256 128 (biasReluRow 50000 256 (V c main_v13) (V c main_v14)) (V c main_arg6))
    (fun t _ => flushed1_eq V c t) cover1

end Cert.KernelIdeal.Blocks1

end
-- ==== Proof.Blocks2.lean ====
/-
  The third region: bias and maximum with zero, tile by tile.

  The grid has 25 points; point t reads rows 2000 t .. 2000 t + 1999 of the [50000, 128] neighbour sums and the whole
  [1, 128] bias row, and writes rows 2000 t .. of the [50000, 128] result: entry (p, n) of the tile is
  max (agg(2000 t + p, n) + b(0, n)) 0, entry (2000 t + p, n) of the same function of the whole arrays.  The 25 tiles
  cover the array.  The contents the region is entered with are a parameter.
-/
import proofs.«112924_j58248346469020_1_alg».proof.Proof.Gen.KernelIdeal.Frame
import proofs.«112924_j58248346469020_1_alg».proof.Proof.Layers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks2

open Cert.KernelIdeal Cert.KernelIdeal.Gen Cert.Gcn Cert.Layers

variable (V : (c : Dev nD) → (b : Ref sig .tc) → Buf (Elt Ideal) ((c : Thread nD τ).loc b))

theorem hz : (![0, 0] : Fin 2 → Nat) = fun _ => 0 := funext fun a => by fin_cases a <;> rfl

/-- What the body leaves in the output tile. -/
theorem out2_eq (x0 : Vec Ideal S2000x128 .f32) (x1 : Vec Ideal S1x128 .f32) :
    out2_2 (F := Ideal) x0 x1 = biasReluRow 2000 128 x0 x1 := by
  unfold out2_2
  rw [View.canon_unit_zero hz]
  simp only [View.ld_unit_zero (S := S2000x128) hz, View.ld_unit_zero (S := S1x128) hz]
  exact biasReluRow_kernel x0 x1 shapeCasts_S2000x128_S2000x128 shapeCasts_S1x128_S1x128 broadcasts_S1x128_S2000x128

/-- The block indices over the grid: the row-tiled windows are at block (t, 0), the bias row at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The sums' block at point t is rows 2000 t .. of the sums. -/
theorem iblk2_0_apply (c : Dev nD) (t : Fin cfg2.N) (y : S2000x128.Idx) (i : S50000x128.Idx)
    (h0 : (i 0).val = t.val * 2000 + (y 0).val) (h1 : (i 1).val = (y 1).val) :
    (iblk2 V c 0 t : Vec Ideal S2000x128 .f32) y = (V c main_v28 : S50000x128.Idx → Elt Ideal .f32) i := by
  obtain ⟨e0, e1, -⟩ := idx_facts2 t
  unfold iblk2
  rw [View.read_apply]
  show V c main_v28 _ = V c main_v28 _
  refine congrArg (V c main_v28) ?_
  funext a; apply Fin.ext
  match a with
  | ⟨0, _⟩ => show win2_0.index t (0 : Fin 2) * 2000 + 1 * (y 0).val = (i 0).val; rw [e0, h0]; omega
  | ⟨1, _⟩ => show win2_0.index t (1 : Fin 2) * 128 + 1 * (y 1).val = (i 1).val; rw [e1, h1]; omega

/-- The bias row's block at every point is the bias row. -/
theorem iblk2_1_apply (c : Dev nD) (t : Fin cfg2.N) (y : S1x128.Idx) :
    (iblk2 V c 1 t : Vec Ideal S1x128 .f32) y = (V c main_v29 : S1x128.Idx → Elt Ideal .f32) y := by
  obtain ⟨-, -, e2, e3, -⟩ := idx_facts2 t
  unfold iblk2
  rw [View.read_apply]
  show V c main_v29 _ = V c main_v29 _
  refine congrArg (V c main_v29) ?_
  funext a; apply Fin.ext
  match a with
  | ⟨0, _⟩ => show win2_1.index t (0 : Fin 2) * 1 + 1 * (y 0).val = (y 0).val; rw [e2]; omega
  | ⟨1, _⟩ => show win2_1.index t (1 : Fin 2) * 128 + 1 * (y 1).val = (y 1).val; rw [e3]; omega

/-- What point t writes back is block t of the function of the whole arrays. -/
theorem flushed2_eq (c : Dev nD) (t : Fin cfg2.N) :
    (dat2 V c).flushed 2 t = ((cfg2.win 2).blk t).view.read (Elt Ideal)
      (biasReluRow 50000 128 (V c main_v28) (V c main_v29)) := by
  show (cfg2.win 2).cut (grid2.coords t) ((dat2 V c).after 2 t) = _
  rw [after2_2, out2_eq]
  obtain ⟨-, -, -, -, e4, e5⟩ := idx_facts2 t
  funext j
  show biasReluRow 2000 128 (iblk2 V c 0 t) (iblk2 V c 1 t) j
    = biasReluRow 50000 128 (V c main_v28) (V c main_v29) (((cfg2.win 2).blk t).view.emb j)
  have hc0 : ((((cfg2.win 2).blk t).view.emb j) 0).val = t.val * 2000 + (j 0).val := by
    show win2_2.index t (0 : Fin 2) * 2000 + 1 * (j 0).val = _; rw [e4]; omega
  have hc1 : ((((cfg2.win 2).blk t).view.emb j) 1).val = (j 1).val := by
    show win2_2.index t (1 : Fin 2) * 128 + 1 * (j 1).val = _; rw [e5]; omega
  refine biasReluRow_at (iblk2 V c 0 t) (V c main_v28) (iblk2 V c 1 t) (V c main_v29) j _ (Fin.ext hc1) ?_ ?_
  · exact iblk2_0_apply V c t _ _ hc0 hc1
  · exact iblk2_1_apply V c t _

/-- An index of the result is in point t's block iff each coordinate is in the block's range. -/
theorem mem_blk2 (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v30).slice (win2_2.rect t)).set ↔ _
  rw [View.set_slice_whole, Rect.mem_set_unit]
  exact Iff.rfl

/-- Row r of the result is in the block of point r / 2000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  have ht : (i 0).val / 2000 < cfg2.N := by rw [hN]; omega
  obtain ⟨-, -, -, -, e4, e5⟩ := idx_facts2 ⟨(i 0).val / 2000, ht⟩
  refine ⟨⟨(i 0).val / 2000, ht⟩, flush2_2 _, ?_⟩
  rw [mem_blk2]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ (1 : Fin 2) * 128 ≤ (i 1).val
      ∧ (i 1).val < win2_2.index ⟨(i 0).val / 2000, ht⟩ (1 : Fin 2) * 128 + 128
    rw [e5]; omega

/-- After the region the result array holds the function of the arrays the region was entered with. -/
theorem final2 (c : Dev nD) :
    (dat2 V c).arrAt 2 cfg2.N = biasReluRow 50000 128 (V c main_v28) (V c main_v29) :=
  (dat2 V c).arrAt_eq_of_cover 2 (biasReluRow 50000 128 (V c main_v28) (V c main_v29))
    (fun t _ => flushed2_eq V c t) cover2

end Cert.KernelIdeal.Blocks2

end
-- ==== Proof.Spec.lean ====
/-
  A two-layer graph convolution as one function of its inputs.

  With A the sparse adjacency matrix given in coordinate form (edge e adds vals(e) times row cols(e) of a dense
  matrix into row rows(e) of the result), the network is

      z = max (A ((max (A (x W1) + b1) 0) W2) + b2) 0 ,

  the biases added to every row.  The sparse product is carried as one function of the dense matrix and is
  never opened: both programs apply the same host operations (wrap a negative column id, gather the rows, scale
  them by the edge values, add them into a zero array at the row ids), so it only matters that they apply them to
  equal matrices.  The dimension records and the side conditions of those host operations are bundled, so that a
  program's own records can be handed over in one piece.
-/
import proofs.«112924_j58248346469020_1_alg».proof.Proof.Layers
import Idealize.ShloMosaic.PureOps.Ideal

noncomputable section

namespace Cert.Spec

open Idealize.ShloMosaic Idealize.ShloMosaic.ValueIdx Cert.Gcn Cert.Layers

/-- What the host operations of one sparse product cite: the gather's and the scatter's dimension numbers and
    the four broadcasts' side conditions, for N nodes, E edges and D columns. -/
structure SpmmDims (N E D : Nat) where
  gd : GatherDims ⟨2, ![N, D]⟩ ⟨2, ![E, 1]⟩ ⟨2, ![E, D]⟩
  sd : ScatterDims ⟨2, ![N, D]⟩ ⟨2, ![E, 1]⟩ ⟨2, ![E, D]⟩
  h0 : (⟨0, ![]⟩ : Shape).BroadcastsInDim ⟨1, ![E]⟩ (![] : Fin 0 → Fin 1)
  h1 : (⟨1, ![E]⟩ : Shape).BroadcastsInDim ⟨2, ![E, 1]⟩ (![0] : Fin 1 → Fin 2)
  h2 : (⟨2, ![E, 1]⟩ : Shape).BroadcastsInDim ⟨2, ![E, D]⟩ (![0, 1] : Fin 2 → Fin 2)
  h3 : (⟨0, ![]⟩ : Shape).BroadcastsInDim ⟨2, ![N, D]⟩ (![] : Fin 0 → Fin 2)

/-- The sparse product in coordinate form, as the host operations spell it: a negative column id is wrapped by
    adding nw, the dense rows at the column ids are gathered and scaled by the edge values, and the scaled rows
    are added into a zero array at the row ids. -/
def spmm {N E D : Nat} (d : SpmmDims N E D) (nw : BitVec 32) (rows cols : IVec ⟨1, ![E]⟩ 32)
    (vals : FVec Ideal ⟨1, ![E]⟩ .f32) (dense : FVec Ideal ⟨2, ![N, D]⟩ .f32) : FVec Ideal ⟨2, ![N, D]⟩ .f32 :=
  Host.scatterAdd (F := Ideal) d.sd
    (broadcastInDim ⟨2, ![N, D]⟩ ![] d.h3 (constant (F := Ideal) ⟨0, ![]⟩ .f32 0x00000000#32))
    (broadcastInDim ⟨2, ![E, 1]⟩ ![0] d.h1 rows)
    (mulf (Host.gather d.gd dense (broadcastInDim ⟨2, ![E, 1]⟩ ![0] d.h1
        (select (cmpi .slt cols (broadcastInDim ⟨1, ![E]⟩ ![] d.h0 (constantI ⟨0, ![]⟩ 32 0#32)))
          (addi cols (broadcastInDim ⟨1, ![E]⟩ ![] d.h0 (constantI ⟨0, ![]⟩ 32 nw))) cols)))
      (broadcastInDim ⟨2, ![E, D]⟩ ![0, 1] d.h2 (broadcastInDim ⟨2, ![E, 1]⟩ ![0] d.h1 vals)))

/-- The network: 50000 nodes, 800000 edges, 512 input features, 256 hidden and 128 output columns. -/
def gcn (d1 : SpmmDims 50000 800000 256) (d2 : SpmmDims 50000 800000 128)
    (x : FVec Ideal ⟨2, ![50000, 512]⟩ .f32) (rows cols : IVec ⟨1, ![800000]⟩ 32) (vals : FVec Ideal ⟨1, ![800000]⟩ .f32)
    (w1 : FVec Ideal ⟨2, ![512, 256]⟩ .f32) (b1 : FVec Ideal ⟨1, ![256]⟩ .f32)
    (w2 : FVec Ideal ⟨2, ![256, 128]⟩ .f32) (b2 : FVec Ideal ⟨1, ![128]⟩ .f32) : FVec Ideal ⟨2, ![50000, 128]⟩ .f32 :=
  biasRelu 50000 128
    (spmm d2 50000#32 rows cols vals
      (lin 50000 256 128 (biasRelu 50000 256 (spmm d1 50000#32 rows cols vals (lin 50000 512 256 x w1)) b1) w2))
    b2

end Cert.Spec

end
-- ==== Proof.KernelValue.lean ====
/-
  The idealized kernel's result array is the two-layer graph convolution of its arguments.

  The buffer contents at the program's boundaries are followed from the launch to the return.  The first region
  leaves the product of the features with the first weights; the first stretch of host operations applies the
  sparse product to it and casts the first bias to one row, reading the edge arrays and the bias as launched; the
  second region leaves (max (agg + b1) 0) W2 of what it finds; the second stretch applies the sparse product again
  and casts the second bias; the third region leaves max (agg + b2) 0.  A bias cast to one row and read at (0, n)
  is the bias at n.
-/
import proofs.«112924_j58248346469020_1_alg».proof.Proof.Blocks0
import proofs.«112924_j58248346469020_1_alg».proof.Proof.Blocks1
import proofs.«112924_j58248346469020_1_alg».proof.Proof.Blocks2
import proofs.«112924_j58248346469020_1_alg».proof.Proof.Spec
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Chain

open Cert.KernelIdeal Cert.KernelIdeal.Gen Cert.Gcn Cert.Layers Cert.Spec

variable (m : (ℓ : Loc nD τ sig) → Buf (Elt Ideal) ℓ) (ρ : Dev nD → PrngReg)

/-- The records and side conditions the kernel program's first sparse product cites. -/
def d1 : SpmmDims 50000 800000 256 :=
  ⟨gather_S50000x256_S800000x1_S800000x256_1_0_n_n_0_1_1256, scatter_S50000x256_S800000x1_S800000x256_1_0_0_1,
    bcast_S_S800000, bcast_S800000_S800000x1_0, bcast_S800000x1_S800000x256_0_1, bcast_S_S50000x256⟩

/-- The same for its second sparse product. -/
def d2 : SpmmDims 50000 800000 128 :=
  ⟨gather_S50000x128_S800000x1_S800000x128_1_0_n_n_0_1_1128, scatter_S50000x128_S800000x1_S800000x128_1_0_0_1,
    bcast_S_S800000, bcast_S800000_S800000x1_0, bcast_S800000x1_S800000x128_0_1, bcast_S_S50000x128⟩

/-! ## The first region and the first stretch of host operations -/

/-- After the first region the product array holds the features times the first weights. -/
theorem w1_v0 (c : Dev nD) :
    W1 m ρ c (Proc.devRef .tc main_v0)
      = lin 50000 512 256 (m ((c : Thread nD τ).loc main_arg0)) (m ((c : Thread nD τ).loc main_arg4)) :=
  (W1_arr m ρ c 2).trans (Cert.KernelIdeal.Blocks0.final0 (V0 m ρ) c)

/-- The first region writes no argument but through its own windows: the edge arrays, the biases and the second
    weights are as launched. -/
theorem w1_arg1 (c : Dev nD) : W1 m ρ c (Proc.devRef .tc main_arg1) = m ((c : Thread nD τ).loc main_arg1) :=
  W1_of_ne m ρ c main_arg1 (by decide)
theorem w1_arg2 (c : Dev nD) : W1 m ρ c (Proc.devRef .tc main_arg2) = m ((c : Thread nD τ).loc main_arg2) :=
  W1_of_ne m ρ c main_arg2 (by decide)
theorem w1_arg3 (c : Dev nD) : W1 m ρ c (Proc.devRef .tc main_arg3) = m ((c : Thread nD τ).loc main_arg3) :=
  W1_of_ne m ρ c main_arg3 (by decide)
theorem w1_arg5 (c : Dev nD) : W1 m ρ c (Proc.devRef .tc main_arg5) = m ((c : Thread nD τ).loc main_arg5) :=
  W1_of_ne m ρ c main_arg5 (by decide)
theorem w1_arg6 (c : Dev nD) : W1 m ρ c (Proc.devRef .tc main_arg6) = m ((c : Thread nD τ).loc main_arg6) :=
  W1_of_ne m ρ c main_arg6 (by decide)
theorem w1_arg7 (c : Dev nD) : W1 m ρ c (Proc.devRef .tc main_arg7) = m ((c : Thread nD τ).loc main_arg7) :=
  W1_of_ne m ρ c main_arg7 (by decide)

/-- The first stretch leaves the sparse product of what the first region left. -/
theorem w2_v13 (c : Dev nD) :
    W2 m ρ c (Proc.devRef .tc main_v13)
      = spmm d1 50000#32 (m ((c : Thread nD τ).loc main_arg1)) (m ((c : Thread nD τ).loc main_arg2))
          (m ((c : Thread nD τ).loc main_arg3))
          (lin 50000 512 256 (m ((c : Thread nD τ).loc main_arg0)) (m ((c : Thread nD τ).loc main_arg4))) := by
  rw [← w1_v0 m ρ c, ← w1_arg1 m ρ c, ← w1_arg2 m ρ c, ← w1_arg3 m ρ c]
  show StableHlo.after hostOps1 (W1 m ρ c) (Proc.devRef .tc main_v13) = _
  after_results
  rfl

/-- It casts the first bias to one row. -/
theorem w2_v14 (c : Dev nD) :
    W2 m ρ c (Proc.devRef .tc main_v14)
      = shapeCast S1x256 (m ((c : Thread nD τ).loc main_arg5)) shapeCasts_S256_S1x256 := by
  rw [← w1_arg5 m ρ c]
  show StableHlo.after hostOps1 (W1 m ρ c) (Proc.devRef .tc main_v14) = _
  after_results
  rfl

/-- It writes no argument. -/
theorem w2_arg1 (c : Dev nD) : W2 m ρ c (Proc.devRef .tc main_arg1) = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w1_arg1 m ρ c)
theorem w2_arg2 (c : Dev nD) : W2 m ρ c (Proc.devRef .tc main_arg2) = m ((c : Thread nD τ).loc main_arg2) :=
  (StableHlo.after_of_forall_not_mem (b := Proc.devRef .tc main_arg2) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w1_arg2 m ρ c)
theorem w2_arg3 (c : Dev nD) : W2 m ρ c (Proc.devRef .tc main_arg3) = m ((c : Thread nD τ).loc main_arg3) :=
  (StableHlo.after_of_forall_not_mem (b := Proc.devRef .tc main_arg3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w1_arg3 m ρ c)
theorem w2_arg6 (c : Dev nD) : W2 m ρ c (Proc.devRef .tc main_arg6) = m ((c : Thread nD τ).loc main_arg6) :=
  (StableHlo.after_of_forall_not_mem (b := Proc.devRef .tc main_arg6) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w1_arg6 m ρ c)
theorem w2_arg7 (c : Dev nD) : W2 m ρ c (Proc.devRef .tc main_arg7) = m ((c : Thread nD τ).loc main_arg7) :=
  (StableHlo.after_of_forall_not_mem (b := Proc.devRef .tc main_arg7) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w1_arg7 m ρ c)

/-! ## The second region and the second stretch -/

/-- The first layer's activation times the second weights, of the arguments. -/
abbrev hidden (c : Dev nD) : FVec Ideal ⟨2, ![50000, 128]⟩ .f32 :=
  lin 50000 256 128
    (biasRelu 50000 256
      (spmm d1 50000#32 (m ((c : Thread nD τ).loc main_arg1)) (m ((c : Thread nD τ).loc main_arg2))
        (m ((c : Thread nD τ).loc main_arg3))
        (lin 50000 512 256 (m ((c : Thread nD τ).loc main_arg0)) (m ((c : Thread nD τ).loc main_arg4))))
      (m ((c : Thread nD τ).loc main_arg5)))
    (m ((c : Thread nD τ).loc main_arg6))

/-- After the second region its result array holds that. -/
theorem w3_v15 (c : Dev nD) : W3 m ρ c (Proc.devRef .tc main_v15) = hidden m c := by
  refine (W3_arr m ρ c 3).trans ((Cert.KernelIdeal.Blocks1.final1 (V2 m ρ) c).trans ?_)
  show lin 50000 256 128 (biasReluRow 50000 256 (W2 m ρ c (Proc.devRef .tc main_v13)) (W2 m ρ c (Proc.devRef .tc main_v14)))
    (W2 m ρ c (Proc.devRef .tc main_arg6)) = _
  rw [w2_v13 m ρ c, w2_v14 m ρ c, w2_arg6 m ρ c, biasReluRow_cast]

theorem w3_arg1 (c : Dev nD) : W3 m ρ c (Proc.devRef .tc main_arg1) = m ((c : Thread nD τ).loc main_arg1) :=
  (W3_of_ne m ρ c main_arg1 (by decide)).trans (w2_arg1 m ρ c)
theorem w3_arg2 (c : Dev nD) : W3 m ρ c (Proc.devRef .tc main_arg2) = m ((c : Thread nD τ).loc main_arg2) :=
  (W3_of_ne m ρ c main_arg2 (by decide)).trans (w2_arg2 m ρ c)
theorem w3_arg3 (c : Dev nD) : W3 m ρ c (Proc.devRef .tc main_arg3) = m ((c : Thread nD τ).loc main_arg3) :=
  (W3_of_ne m ρ c main_arg3 (by decide)).trans (w2_arg3 m ρ c)
theorem w3_arg7 (c : Dev nD) : W3 m ρ c (Proc.devRef .tc main_arg7) = m ((c : Thread nD τ).loc main_arg7) :=
  (W3_of_ne m ρ c main_arg7 (by decide)).trans (w2_arg7 m ρ c)

/-- The second stretch leaves the sparse product of what the second region left. -/
theorem w4_v28 (c : Dev nD) :
    W4 m ρ c (Proc.devRef .tc main_v28)
      = spmm d2 50000#32 (m ((c : Thread nD τ).loc main_arg1)) (m ((c : Thread nD τ).loc main_arg2))
          (m ((c : Thread nD τ).loc main_arg3)) (hidden m c) := by
  rw [← w3_v15 m ρ c, ← w3_arg1 m ρ c, ← w3_arg2 m ρ c, ← w3_arg3 m ρ c]
  show StableHlo.after hostOps2 (W3 m ρ c) (Proc.devRef .tc main_v28) = _
  after_results
  rfl

/-- It casts the second bias to one row. -/
theorem w4_v29 (c : Dev nD) :
    W4 m ρ c (Proc.devRef .tc main_v29)
      = shapeCast S1x128 (m ((c : Thread nD τ).loc main_arg7)) shapeCasts_S128_S1x128 := by
  rw [← w3_arg7 m ρ c]
  show StableHlo.after hostOps2 (W3 m ρ c) (Proc.devRef .tc main_v29) = _
  after_results
  rfl

/-! ## The third region -/

/-- After the last region the result array holds the network of the arguments. -/
theorem w5_v30 (c : Dev nD) :
    W5 m ρ c (Proc.devRef .tc main_v30)
      = gcn d1 d2 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  refine (W5_arr m ρ c 2).trans ((Cert.KernelIdeal.Blocks2.final2 (V4 m ρ) c).trans ?_)
  show biasReluRow 50000 128 (W4 m ρ c (Proc.devRef .tc main_v28)) (W4 m ρ c (Proc.devRef .tc main_v29)) = _
  rw [w4_v28 m ρ c, w4_v29 m ρ c, biasReluRow_cast]
  rfl

end Cert.KernelIdeal.Chain

end
-- ==== Proof.RefSide.lean ====
/-
  The reference program's result is the two-layer graph convolution of its arguments.

  The reference multiplies whole matrices: a dot_general of the features with the first weights, the sparse
  product, the bias (broadcast to one row, then down the rows) and a maximum with a broadcast zero; then the same
  again with the second weights and bias.  Each dot_general with these dimension numbers is the sum over the
  shared axis, each bias-and-maximum is entry by entry max (agg(r, n) + b(n)) 0, and the sparse product is left as
  the one function it is.
-/
import proofs.«112924_j58248346469020_1_alg».proof.Proof.Gen.ReferenceIdeal.Run
import proofs.«112924_j58248346469020_1_alg».proof.Proof.Spec

noncomputable section

open Idealize.ShloMosaic Idealize.ShloMosaic.TcCoe Idealize.SL.Sem

namespace Cert.ReferenceIdeal.RefValue

open Cert.ReferenceIdeal Cert.ReferenceIdeal.Gen Cert.Gcn Cert.Layers Cert.Spec

/-- The records and side conditions the reference's first sparse product cites. -/
def d1 : SpmmDims 50000 800000 256 :=
  ⟨gather_S50000x256_S800000x1_S800000x256_1_0_n_n_0_1_1256, scatter_S50000x256_S800000x1_S800000x256_1_0_0_1,
    bcast_S_S800000, bcast_S800000_S800000x1_0, bcast_S800000x1_S800000x256_0_1, bcast_S_S50000x256⟩

/-- The same for its second sparse product. -/
def d2 : SpmmDims 50000 800000 128 :=
  ⟨gather_S50000x128_S800000x1_S800000x128_1_0_n_n_0_1_1128, scatter_S50000x128_S800000x1_S800000x128_1_0_0_1,
    bcast_S_S800000, bcast_S800000_S800000x1_0, bcast_S800000x1_S800000x128_0_1, bcast_S_S50000x128⟩

/-- The reference run's result term, at the ideal values, is the network of its arguments. -/
theorem ref_eq (x : FVec Ideal S50000x512 .f32) (rows cols : IVec S800000 32) (vals : FVec Ideal S800000 .f32)
    (w1 : FVec Ideal S512x256 .f32) (b1 : FVec Ideal S256 .f32) (w2 : FVec Ideal S256x128 .f32) (b2 : FVec Ideal S128 .f32) :
    maximumf (addf (Host.scatterAdd scatter_S50000x128_S800000x1_S800000x128_1_0_0_1 (broadcastInDim S50000x128 ![] bcast_S_S50000x128 (constant S_
      .f32 0x00000000#32)) (broadcastInDim S800000x1 ![0] bcast_S800000_S800000x1_0 rows) (mulf (Host.gather
      gather_S50000x128_S800000x1_S800000x128_1_0_n_n_0_1_1128 (Host.dotGeneral dot_S50000x256_S256x128_S50000x128_1_0_0_1_n_n none (maximumf (addf
      (Host.scatterAdd scatter_S50000x256_S800000x1_S800000x256_1_0_0_1 (broadcastInDim S50000x256 ![] bcast_S_S50000x256 (constant S_ .f32
      0x00000000#32)) (broadcastInDim S800000x1 ![0] bcast_S800000_S800000x1_0 rows) (mulf (Host.gather
      gather_S50000x256_S800000x1_S800000x256_1_0_n_n_0_1_1256 (Host.dotGeneral dot_S50000x512_S512x256_S50000x256_1_0_0_1_n_n none x w1)
      (broadcastInDim S800000x1 ![0] bcast_S800000_S800000x1_0 (select (cmpi .slt cols (broadcastInDim S800000 ![] bcast_S_S800000 (constantI S_ 32
      0#32))) (addi cols (broadcastInDim S800000 ![] bcast_S_S800000 (constantI S_ 32 50000#32))) cols))) (broadcastInDim S800000x256 ![0, 1]
      bcast_S800000x1_S800000x256_0_1 (broadcastInDim S800000x1 ![0] bcast_S800000_S800000x1_0 vals)))) (broadcastInDim S50000x256 ![0, 1]
      bcast_S1x256_S50000x256_0_1 (broadcastInDim S1x256 ![1] bcast_S256_S1x256_1 b1))) (broadcastInDim S50000x256 ![] bcast_S_S50000x256 (constant S_
      .f32 0x00000000#32))) w2) (broadcastInDim S800000x1 ![0] bcast_S800000_S800000x1_0 (select (cmpi .slt cols (broadcastInDim S800000 ![]
      bcast_S_S800000 (constantI S_ 32 0#32))) (addi cols (broadcastInDim S800000 ![] bcast_S_S800000 (constantI S_ 32 50000#32))) cols)))
      (broadcastInDim S800000x128 ![0, 1] bcast_S800000x1_S800000x128_0_1 (broadcastInDim S800000x1 ![0] bcast_S800000_S800000x1_0 vals))))
      (broadcastInDim S50000x128 ![0, 1] bcast_S1x128_S50000x128_0_1 (broadcastInDim S1x128 ![1] bcast_S128_S1x128_1 b2))) (broadcastInDim S50000x128
      ![] bcast_S_S50000x128 (constant S_ .f32 0x00000000#32))
      = gcn d1 d2 x rows cols vals w1 b1 w2 b2 := by
  rw [show dot_S50000x512_S512x256_S50000x256_1_0_0_1_n_n = DotDims.plain 50000 512 256 from rfl,
    show dot_S50000x256_S256x128_S50000x128_1_0_0_1_n_n = DotDims.plain 50000 256 128 from rfl]
  rw [lin_of_dotGeneral x w1]
  rw [lin_biasRelu_host _ b1 w2 bcast_S256_S1x256_1 bcast_S1x256_S50000x256_0_1 bcast_S_S50000x256]
  rw [biasRelu_host _ b2 bcast_S128_S1x128_1 bcast_S1x128_S50000x128_0_1 bcast_S_S50000x128]
  rfl

end Cert.ReferenceIdeal.RefValue

end
-- ==== Proof.lean ====
/-
  A two-layer graph convolution computed by three row-tiled regions, against the same network written with whole
  matrices: equal as extended reals.

  Both programs compute  z = max (A ((max (A (x W1) + b1) 0) W2) + b2) 0  for the sparse matrix A given by its
  edges.  The tiled program forms x W1 twenty-five tiles of 2000 rows at a time (operands narrowed to bf16, which is
  the identity on extended reals, and a zero accumulator, which adds nothing), applies A by the same host operations
  the reference uses, fuses the first bias, the maximum with zero and the product with W2 into its second region,
  applies A again, and adds the second bias and takes the maximum in its third region.  Every entry of a tile
  depends on the matching row of the whole arrays only, and the tiles cover the arrays, so each region leaves the
  whole-matrix function of what it was entered with; a matrix product with these dimension numbers is the sum over
  the shared axis in both spellings, and finite sums of extended reals do not depend on how they are grouped.  No
  law used needs the inputs to be finite.  The idealization rewrote no operation, so that conjunct is trivial.
-/
import proofs.«112924_j58248346469020_1_alg».proof.Defs
import proofs.«112924_j58248346469020_1_alg».proof.Proof.Gen.Kernel
import proofs.«112924_j58248346469020_1_alg».proof.Proof.Gen.Kernel.Frame
import proofs.«112924_j58248346469020_1_alg».proof.Proof.Gen.KernelIdeal
import proofs.«112924_j58248346469020_1_alg».proof.Proof.Gen.KernelIdeal.Frame
import proofs.«112924_j58248346469020_1_alg».proof.Proof.Gen.ReferenceIdeal
import proofs.«112924_j58248346469020_1_alg».proof.Proof.Gen.ReferenceIdeal.Run
import proofs.«112924_j58248346469020_1_alg».proof.Proof.Gen.Pre_finite_inputs
import proofs.«112924_j58248346469020_1_alg».proof.Proof.KernelRun
import proofs.«112924_j58248346469020_1_alg».proof.Proof.KernelValue
import proofs.«112924_j58248346469020_1_alg».proof.Proof.RefSide
import Idealize.ShloMosaic.Adequacy
import Idealize.ShloMosaic.Init

noncomputable section

namespace Cert.Proof

open Idealize.ShloMosaic Idealize.ShloMosaic.TcCoe Idealize.SL.Sem

/-- The three programs run, fault-free, and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two programs cite the same dimension numbers for their sparse products. -/
theorem d1_eq : Cert.ReferenceIdeal.RefValue.d1 = Cert.KernelIdeal.Chain.d1 := rfl
theorem d2_eq : Cert.ReferenceIdeal.RefValue.d2 = Cert.KernelIdeal.Chain.d2 := rfl

/-- From memories that agree on the arguments both programs end with the network of the arguments in their
    result arrays. -/
theorem algebraic : Cert.algebraic_KernelIdeal_ReferenceIdeal := by
  intro m ρ m' ρ' _ hagree
  refine ⟨fun c => Cert.Spec.gcn Cert.KernelIdeal.Chain.d1 Cert.KernelIdeal.Chain.d2
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.w5_v30 m ρ c), (h c).2⟩)
      (Cert.KernelIdeal.Out.run_out m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [e0, e1, e2, e3, e4, e5, e6, e7]
    refine (Cert.ReferenceIdeal.RefValue.ref_eq _ _ _ _ _ _ _ _).trans ?_
    rw [d1_eq, d2_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
